-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x128 .f32) (main_arg11 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S256x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x600000 32) (main_arg2 : FVec F S256x128 .f32) (main_arg3 : FVec F S128 .f32) (main_arg4 : FVec F S128x128 .f32) (main_arg5 : FVec F S128 .f32) (main_arg6 : FVec F S256x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x600000 : Shape := ⟨2, ![2, 600000]⟩
abbrev S256x128 : Shape := ⟨2, ![256, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S8000x128 : Shape := ⟨2, ![8000, 128]⟩
abbrev S2000x128 : Shape := ⟨2, ![2000, 128]⟩

abbrev nBuf : Space → Nat
  | .hbm => 58
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S50000x128, .bf16⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S600000x128, .bf16⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S600000x128, .bf16⟩
  | .hbm, ⟨35, _⟩ => ⟨S128x128, .f32⟩
  | .hbm, ⟨36, _⟩ => ⟨S128x128, .bf16⟩
  | .hbm, ⟨37, _⟩ => ⟨S128x128, .f32⟩
  | .hbm, ⟨38, _⟩ => ⟨S128x128, .bf16⟩
  | .hbm, ⟨39, _⟩ => ⟨S128x128, .bf16⟩
  | .hbm, ⟨40, _⟩ => ⟨S1x128, .f32⟩
  | .hbm, ⟨41, _⟩ => ⟨S1x128, .f32⟩
  | .hbm, ⟨42, _⟩ => ⟨S600000x128, .f32⟩
  | .hbm, ⟨43, _⟩ => ⟨S_, .f32⟩
  | .hbm, ⟨44, _⟩ => ⟨S50000x128, .f32⟩
  | .hbm, ⟨45, _⟩ => ⟨S600000x1, .i32⟩
  | .hbm, ⟨46, _⟩ => ⟨S50000x128, .f32⟩
  | .hbm, ⟨47, _⟩ => ⟨S50000x128, .bf16⟩
  | .hbm, ⟨48, _⟩ => ⟨S128x128, .f32⟩
  | .hbm, ⟨49, _⟩ => ⟨S128x128, .bf16⟩
  | .hbm, ⟨50, _⟩ => ⟨S128x128, .f32⟩
  | .hbm, ⟨51, _⟩ => ⟨S128x128, .bf16⟩
  | .hbm, ⟨52, _⟩ => ⟨S128x128, .bf16⟩
  | .hbm, ⟨53, _⟩ => ⟨S128x128, .bf16⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S50000x128, .f32⟩
  | .local _ .vmem, ⟨0, _⟩ => ⟨S8000x128, .bf16⟩
  | .local _ .vmem, ⟨1, _⟩ => ⟨S8000x128, .bf16⟩
  | .local _ .vmem, ⟨2, _⟩ => ⟨S8000x128, .bf16⟩
  | .local _ .vmem, ⟨3, _⟩ => ⟨S8000x128, .bf16⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S8000x128, .f32⟩
  | .local _ .vmem, ⟨10, _⟩ => ⟨S8000x128, .f32⟩
  | .local _ .vmem, ⟨11, _⟩ => ⟨S2000x128, .bf16⟩
  | .local _ .vmem, ⟨12, _⟩ => ⟨S2000x128, .bf16⟩
  | .local _ .vmem, ⟨13, _⟩ => ⟨S2000x128, .bf16⟩
  | .local _ .vmem, ⟨14, _⟩ => ⟨S2000x128, .bf16⟩
  | .local _ .vmem, ⟨15, _⟩ => ⟨S128x128, .bf16⟩
  | .local _ .vmem, ⟨16, _⟩ => ⟨S1x128, .f32⟩
  | .local _ .vmem, ⟨17, _⟩ => ⟨S128x128, .bf16⟩
  | .local _ .vmem, ⟨18, _⟩ => ⟨S128x128, .bf16⟩
  | .local _ .vmem, ⟨19, _⟩ => ⟨S1x128, .f32⟩
  | .local _ .vmem, ⟨20, _⟩ => ⟨S128x128, .bf16⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bitsLt_bf16_f32 : FTy.bits .bf16 < FTy.bits .f32
  bcast_S_S600000 : S_.BroadcastsInDim S600000 (![] : Fin 0 → Fin S600000.rank)
  bcast_S600000_S600000x1_0 : S600000.BroadcastsInDim S600000x1 (![0] : Fin 1 → Fin S600000x1.rank)
  slices_S256x128_S128x128_0_0 : S256x128.Slices ![0, 0] S128x128
  slices_S256x128_S128x128_128_0 : S256x128.Slices ![128, 0] S128x128
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  gather_S50000x128_S600000x1_S600000x128_1_0_n_n_0_1_1128_wf : GatherDims.WF S50000x128 S600000x1 S600000x128 [1] [0] [] [0] [] 1 ![1, 128]
  dot_S8000x128_S128x128_S8000x128_1_0_0_1_n_n_wf : DotDims.WF S8000x128 S128x128 S8000x128 [1] [0] [0] [1] [] []
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S600000x128.size a
  hwx0_0 : ∀ i : grid0.Coords, EltTy.bits .bf16 = 32 ∨ (Rect.block (s := S600000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S600000x128.size a
  hwx0_1 : ∀ i : grid0.Coords, EltTy.bits .bf16 = 32 ∨ (Rect.block (s := S600000x128) S8000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x128.size a ≤ S600000x128.size a
  hwx0_7 : ∀ i : grid0.Coords, EltTy.bits .f32 = 32 ∨ (Rect.block (s := S600000x128) S8000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .bf16 = 32 ∨ (Rect.block (s := S50000x128) S2000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .bf16 = 32 ∨ (Rect.block (s := S128x128) S128x128.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v11) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S8000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v4) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v39) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v40) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S256x128 : Shape := ⟨2, ![256, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S600000x256 : Shape := ⟨2, ![600000, 256]⟩
abbrev S1x128 : Shape := ⟨2, ![1, 128]⟩
abbrev S50000x256 : Shape := ⟨2, ![50000, 256]⟩

abbrev nBuf : Space → Nat
  | .hbm => 63
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S600000x256, .f32⟩
  | .hbm, ⟨35, _⟩ => ⟨S600000x128, .f32⟩
  | .hbm, ⟨36, _⟩ => ⟨S1x128, .f32⟩
  | .hbm, ⟨37, _⟩ => ⟨S600000x128, .f32⟩
  | .hbm, ⟨38, _⟩ => ⟨S600000x128, .f32⟩
  | .hbm, ⟨39, _⟩ => ⟨S600000x128, .f32⟩
  | .hbm, ⟨40, _⟩ => ⟨S600000x128, .f32⟩
  | .hbm, ⟨41, _⟩ => ⟨S1x128, .f32⟩
  | .hbm, ⟨42, _⟩ => ⟨S600000x128, .f32⟩
  | .hbm, ⟨43, _⟩ => ⟨S600000x128, .f32⟩
  | .hbm, ⟨44, _⟩ => ⟨S_, .f32⟩
  | .hbm, ⟨45, _⟩ => ⟨S50000x128, .f32⟩
  | .hbm, ⟨46, _⟩ => ⟨S600000x1, .i32⟩
  | .hbm, ⟨47, _⟩ => ⟨S50000x128, .f32⟩
  | .hbm, ⟨48, _⟩ => ⟨S50000x256, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x256_d1 : Shape.Concatenates [S600000x128, S600000x128] S600000x256 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  dot_S600000x256_S256x128_S600000x128_1_0_0_1_n_n_wf : DotDims.WF S600000x256 S256x128 S600000x128 [1] [0] [0] [1] [] []
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The kernel program's run with its result named.

  @main is two host stretches and two pipelined regions. Along the run the TensorCore's buffers pass through the
  contents `W0` (launch), `W1` (after the first host stretch), `W2` (after the edge region), `W3` (after the second
  host stretch) and `W4` (after the update region); every weakly fair execution terminates with each unscoped buffer
  at `W4`. Read at the result buffer and at the twelve arguments this is the run below: the result holds what the last
  boundary's contents say, the arguments what they were launched with.
-/
import proofs.«121999_j13623636263131_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_named : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

/-- The result buffer is the update region's output array: what that region's write-backs leave of it. -/
theorem W4_result (c : Dev nD) : W4 m ρ c (Proc.devRef .tc main_v40) = (dat1 (V3 m ρ) c).arrAt 9 cfg1.N :=
  W4_arr m ρ c 9

end Cert.KernelIdeal.Named

end
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.Dense.lean ====
/-
  Dense layers on one row, over the extended reals.

  A row `x` of 128 entries goes through a dense layer `x · W + b` (`affine`); two rows `xa`, `xb` go through the layer
  whose weight matrix is stacked from two 128 × 128 halves, written either as the sum of the two half products
  (`affine2`) or as ONE product of the joined 256-entry row with the stacked 256 × 128 matrix (`affineCat`). The two
  spellings are the same extended real: a sum over 256 indices is the sum over the first 128 plus the sum over the
  last 128, which needs only that addition is commutative and associative, true of the extended reals with their
  infinities — no finiteness is used.
-/
import Idealize.ShloMosaic.PureOps.Ideal.Laws
import Idealize.ShloMosaic.Lib.ValueIdx

noncomputable section

open scoped BigOperators

namespace Cert.Dense

open Idealize.ShloMosaic Idealize.ShloMosaic.ValueIdx

/-- Row `p` of an array with 128 columns. -/
def rowOf {R : Nat} {φ : FTy} (X : FVec Ideal ⟨2, ![R, 128]⟩ φ) (p : Fin R) : Fin 128 → EReal := fun j => X (ix2 p j)

/-- A 128 × 128 array as a function of its two coordinates. -/
def matOf {φ : FTy} (W : FVec Ideal ⟨2, ![128, 128]⟩ φ) : Fin 128 → Fin 128 → EReal := fun j k => W (ix2 j k)

/-- The one row of a 1 × 128 array. -/
def biasOf {φ : FTy} (B : FVec Ideal ⟨2, ![1, 128]⟩ φ) : Fin 128 → EReal := fun k => B (ix2 (0 : Fin 1) k)

/-- The first 128 rows of a 256 × 128 array, as a function of the two coordinates. -/
def topHalf {φ : FTy} (W : FVec Ideal ⟨2, ![256, 128]⟩ φ) : Fin 128 → Fin 128 → EReal :=
  fun j k => W (ix2 ⟨j.val, by have := j.isLt; omega⟩ k)

/-- The last 128 rows of a 256 × 128 array. -/
def botHalf {φ : FTy} (W : FVec Ideal ⟨2, ![256, 128]⟩ φ) : Fin 128 → Fin 128 → EReal :=
  fun j k => W (ix2 ⟨128 + j.val, by have := j.isLt; omega⟩ k)

/-- A 128-entry vector as a function of its coordinate. -/
def vecOf {φ : FTy} (B : FVec Ideal ⟨1, ![128]⟩ φ) : Fin 128 → EReal := fun k => B (ix1 k)

/-- `x · W + b` at column `k`. -/
def affine (x : Fin 128 → EReal) (w : Fin 128 → Fin 128 → EReal) (b : Fin 128 → EReal) (k : Fin 128) : EReal :=
  (∑ j : Fin 128, x j * w j k) + b k

/-- `(xa · Wa + xb · Wb) + b` at column `k`. -/
def affine2 (xa xb : Fin 128 → EReal) (wa wb : Fin 128 → Fin 128 → EReal) (b : Fin 128 → EReal) (k : Fin 128) : EReal :=
  ((∑ j : Fin 128, xa j * wa j k) + (∑ j : Fin 128, xb j * wb j k)) + b k

/-- The edge network on one pair of rows: `tanh((xa · Wa + xb · Wb) + b1) · W2 + b2` at column `q`. -/
def edgeRow (xa xb : Fin 128 → EReal) (wa wb : Fin 128 → Fin 128 → EReal) (b1 : Fin 128 → EReal)
    (w2 : Fin 128 → Fin 128 → EReal) (b2 : Fin 128 → EReal) (q : Fin 128) : EReal :=
  affine (fun k => Ideal.tanh (affine2 xa xb wa wb b1 k)) w2 b2 q

/-- The update network on one pair of rows: `tanh(tanh((xa · Wa + xb · Wb) + b1) · W2 + b2) · W3 + b3` at column `q`. -/
def updateRow (xa xb : Fin 128 → EReal) (wa wb : Fin 128 → Fin 128 → EReal) (b1 : Fin 128 → EReal)
    (w2 : Fin 128 → Fin 128 → EReal) (b2 : Fin 128 → EReal) (w3 : Fin 128 → Fin 128 → EReal) (b3 : Fin 128 → EReal)
    (q : Fin 128) : EReal :=
  affine (fun k => Ideal.tanh (affine (fun k' => Ideal.tanh (affine2 xa xb wa wb b1 k')) w2 b2 k)) w3 b3 q

/-- An array of `R` rows of 128 entries from its rows. -/
def rowsArr {R : Nat} (f : Fin R → Fin 128 → EReal) : FVec Ideal ⟨2, ![R, 128]⟩ .f32 :=
  fun i => f ⟨(i 0).val, idx2_lt0 i⟩ ⟨(i 1).val, idx2_lt1 i⟩

/-- Read at `(p, q)` it is row `p` at `q`. -/
theorem rowsArr_ix2 {R : Nat} (f : Fin R → Fin 128 → EReal) (p : Fin R) (q : Fin 128) : rowsArr f (ix2 p q) = f p q := rfl

/-- A sum over 256 indices is the sum over the first 128 plus the sum over the last 128. -/
theorem sum_halves (f : Fin 256 → EReal) :
    ∑ j : Fin 256, f j
      = (∑ j : Fin 128, f ⟨j.val, by have := j.isLt; omega⟩) + ∑ j : Fin 128, f ⟨128 + j.val, by have := j.isLt; omega⟩ :=
  Fin.sum_univ_add (a := 128) (b := 128) (f : Fin (128 + 128) → EReal)

/-- The product of the joined row with the stacked matrix, plus the bias, is the sum of the two half products plus
    the bias: `cat` is any 256-entry row whose first half is `xa` and whose second half is `xb`. -/
theorem affineCat_eq (cat : Fin 256 → EReal) (xa xb : Fin 128 → EReal) (w : Fin 256 → Fin 128 → EReal) (b : Fin 128 → EReal)
    (hl : ∀ j : Fin 128, cat ⟨j.val, by have := j.isLt; omega⟩ = xa j)
    (hr : ∀ j : Fin 128, cat ⟨128 + j.val, by have := j.isLt; omega⟩ = xb j) (k : Fin 128) :
    (∑ j : Fin 256, cat j * w j k) + b k
      = affine2 xa xb (fun j => w ⟨j.val, by have := j.isLt; omega⟩) (fun j => w ⟨128 + j.val, by have := j.isLt; omega⟩) b k := by
  unfold affine2
  rw [sum_halves]
  simp only [hl, hr]

end Cert.Dense

end
-- ==== Proof.EdgeBody.lean ====
/-
  The edge kernel's body at an entry, over the extended reals.

  The body stores one value: `tanh((hs · W1a + hd · W1b) + b1) · W2 + b2` of its 8000-row blocks. Entry `(p, q)` of it
  depends on row `p` of the two input blocks only: the hidden layer's entry `(p, k)` is `tanh` of the two half products
  of rows `hs p`, `hd p` with the weight halves plus the bias, and the output entry is the dense layer of that hidden row.
  The changes of float format are the identity on extended reals, and each matrix product into the zero accumulator is
  the plain sum over the 128 contracted indices.
-/
import proofs.«121999_j13623636263131_2_alg».proof.Proof.Gen.KernelIdeal.Skeleton
import proofs.«121999_j13623636263131_2_alg».proof.Proof.LibMatmulPlain
import proofs.«121999_j13623636263131_2_alg».proof.Proof.Dense
import Idealize.ShloMosaic.Lib.Pipeline.Value
import Idealize.ShloMosaic.Lib.ValueLayout

noncomputable section

open scoped BigOperators

namespace Cert.KernelIdeal.EdgeBody

open Idealize.ShloMosaic Idealize.ShloMosaic.ValueIdx Cert.KernelIdeal Cert.KernelIdeal.Gen Cert.Dense

/-- The printed dimension numbers of the body's three products are the plain ones. -/
theorem dims_eq : dot_S8000x128_S128x128_S8000x128_1_0_0_1_n_n = DotDims.plain 8000 128 128 := rfl

/-- ENTRY `(p, q)` OF THE STORED VALUE: the dense layer of the hidden row `p`. -/
theorem pay_apply (x0 x1 : FVec Ideal S8000x128 .bf16) (w1a w1b : FVec Ideal S128x128 .bf16) (b1 : FVec Ideal S1x128 .f32)
    (w2 : FVec Ideal S128x128 .bf16) (b2 : FVec Ideal S1x128 .f32) (p : Fin 8000) (q : Fin 128) :
    k0_pay1 (F := Ideal) x0 x1 w1a w1b b1 w2 b2 (ix2 p q)
      = edgeRow (rowOf x0 p) (rowOf x1 p) (matOf w1a) (matOf w1b) (biasOf b1) (matOf w2) (biasOf b2) q := by
  unfold k0_pay1 edgeRow
  simp only [shapeCast_self, matmul]
  rw [addf_apply, broadcastTo_1b_ab_apply, dims_eq, Cert.Lib.matmul_plain_zero_apply]
  unfold affine
  refine congrArg₂ (· + ·) (Finset.sum_congr rfl fun k _ => congrArg₂ (· * ·) ?_ rfl) rfl
  show Ideal.tanh _ = _
  refine congrArg Ideal.tanh ?_
  rw [addf_apply, addf_apply, broadcastTo_1b_ab_apply, Cert.Lib.matmul_plain_zero_apply, Cert.Lib.matmul_plain_zero_apply]
  rfl

end Cert.KernelIdeal.EdgeBody

end
-- ==== Proof.EdgeBlocks.lean ====
/-
  The edge region's output array, from its blocks.

  The region runs over 75 grid points; point `t` reads rows `8000 t … 8000 t + 7999` of the two gathered arrays and the
  whole of the five small operands (two weight halves, the second weight matrix, two bias rows), and writes back rows
  `8000 t … 8000 t + 7999` of the output. An output entry depends on its own row of the two gathered arrays only, so
  every block is the restriction of ONE function of the arrays as the region finds them — `edgeArr` — and the 75
  blocks fill the 600000 rows: the array ends holding `edgeArr` everywhere.
-/
import proofs.«121999_j13623636263131_2_alg».proof.Proof.Gen.KernelIdeal.Frame
import proofs.«121999_j13623636263131_2_alg».proof.Proof.EdgeBody
import Idealize.ShloMosaic.Lib.Pipeline.Value

set_option maxRecDepth 16384

noncomputable section

namespace Cert.KernelIdeal.EdgeBlocks

open Cert.KernelIdeal Cert.KernelIdeal.Gen Cert.Dense
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- What the output array ends holding: row `e` is the edge network of rows `e` of the two gathered arrays. -/
def edgeArr (c : Dev nD) : FVec Ideal S600000x128 .f32 :=
  rowsArr fun e q => edgeRow (rowOf (R := 600000) (φ := .bf16) (V c main_v11) e) (rowOf (R := 600000) (φ := .bf16) (V c main_v18) e)
    (matOf (φ := .bf16) (V c main_v20)) (matOf (φ := .bf16) (V c main_v22)) (biasOf (φ := .f32) (V c main_v24))
    (matOf (φ := .bf16) (V c main_v23)) (biasOf (φ := .f32) (V c main_v25)) q

/-- Read at an index whose coordinates are `e` and `q`. -/
theorem edgeArr_at (c : Dev nD) (i : S600000x128.Idx) (e : Fin 600000) (q : Fin 128) (he : (i 0).val = e.val) (hq : (i 1).val = q.val) :
    edgeArr V c i = edgeRow (rowOf (R := 600000) (φ := .bf16) (V c main_v11) e) (rowOf (R := 600000) (φ := .bf16) (V c main_v18) e)
      (matOf (φ := .bf16) (V c main_v20)) (matOf (φ := .bf16) (V c main_v22)) (biasOf (φ := .f32) (V c main_v24))
      (matOf (φ := .bf16) (V c main_v23)) (biasOf (φ := .f32) (V c main_v25)) q := by
  have hi : i = ix2 e q := funext fun a => Fin.ext (match a with | ⟨0, _⟩ => he | ⟨1, _⟩ => hq)
  rw [hi]; rfl

/-- The printed index maps over the grid: the two streamed inputs move with the output along the rows, the five small
    operands stay at their one block, and the output's row block is the point's number. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (1 : Fin 2) = 0 ∧ win0_7.index t (0 : Fin 2) < 75 :=
  (by decide +kernel : ∀ t : Fin grid0.N, _)

/-- Every row block of the output is some point's. -/
theorem idx_onto : ∀ q0 : Fin 75, ∃ t : Fin cfg0.N, win0_7.index t = ![q0.val, 0] :=
  (by decide +kernel : ∀ q0 : Fin 75, ∃ t : Fin grid0.N, win0_7.index t = ![q0.val, 0])

/-! ## Each input block, read where the output's rows say -/

theorem rows_in0 (c : Dev nD) (t : Fin cfg0.N) (p : Fin 8000) (e : Fin 600000) (he : e.val = win0_7.index t (0 : Fin 2) * 8000 + p.val) :
    rowOf (R := 8000) (φ := .bf16) (iblk0 V c 0 t) p = rowOf (R := 600000) (φ := .bf16) (V c main_v11) e := by
  obtain ⟨e0, e1, -⟩ := idx_facts t
  funext k
  show V c main_v11 (((cfg0.win 0).blk t).view.emb (ix2 p k)) = V c main_v11 (ix2 e k)
  refine congrArg _ (funext fun a => Fin.ext ?_)
  match a with
  | ⟨0, _⟩ => show win0_0.index t (0 : Fin 2) * 8000 + 1 * p.val = e.val; omega
  | ⟨1, _⟩ => show win0_0.index t (1 : Fin 2) * 128 + 1 * k.val = k.val; omega

theorem rows_in1 (c : Dev nD) (t : Fin cfg0.N) (p : Fin 8000) (e : Fin 600000) (he : e.val = win0_7.index t (0 : Fin 2) * 8000 + p.val) :
    rowOf (R := 8000) (φ := .bf16) (iblk0 V c 1 t) p = rowOf (R := 600000) (φ := .bf16) (V c main_v18) e := by
  obtain ⟨-, -, e0, e1, -⟩ := idx_facts t
  funext k
  show V c main_v18 (((cfg0.win 1).blk t).view.emb (ix2 p k)) = V c main_v18 (ix2 e k)
  refine congrArg _ (funext fun a => Fin.ext ?_)
  match a with
  | ⟨0, _⟩ => show win0_1.index t (0 : Fin 2) * 8000 + 1 * p.val = e.val; omega
  | ⟨1, _⟩ => show win0_1.index t (1 : Fin 2) * 128 + 1 * k.val = k.val; omega

theorem mat_in2 (c : Dev nD) (t : Fin cfg0.N) :
    matOf (φ := .bf16) (iblk0 V c 2 t) = matOf (φ := .bf16) (V c main_v20) := by
  obtain ⟨-, -, -, -, e0, e1, -⟩ := idx_facts t
  funext j k
  show V c main_v20 (((cfg0.win 2).blk t).view.emb (ix2 j k)) = V c main_v20 (ix2 j k)
  refine congrArg _ (funext fun a => Fin.ext ?_)
  match a with
  | ⟨0, _⟩ => show win0_2.index t (0 : Fin 2) * 128 + 1 * j.val = j.val; omega
  | ⟨1, _⟩ => show win0_2.index t (1 : Fin 2) * 128 + 1 * k.val = k.val; omega

theorem bias_in3 (c : Dev nD) (t : Fin cfg0.N) :
    biasOf (φ := .f32) (iblk0 V c 3 t) = biasOf (φ := .f32) (V c main_v24) := by
  obtain ⟨-, -, -, -, -, -, e0, e1, -⟩ := idx_facts t
  funext k
  show V c main_v24 (((cfg0.win 3).blk t).view.emb (ix2 (0 : Fin 1) k)) = V c main_v24 (ix2 (0 : Fin 1) k)
  refine congrArg _ (funext fun a => Fin.ext ?_)
  match a with
  | ⟨0, _⟩ => show win0_3.index t (0 : Fin 2) * 1 + 1 * (0 : Fin 1).val = (0 : Fin 1).val; omega
  | ⟨1, _⟩ => show win0_3.index t (1 : Fin 2) * 128 + 1 * k.val = k.val; omega

theorem mat_in4 (c : Dev nD) (t : Fin cfg0.N) :
    matOf (φ := .bf16) (iblk0 V c 4 t) = matOf (φ := .bf16) (V c main_v22) := by
  obtain ⟨-, -, -, -, -, -, -, -, e0, e1, -⟩ := idx_facts t
  funext j k
  show V c main_v22 (((cfg0.win 4).blk t).view.emb (ix2 j k)) = V c main_v22 (ix2 j k)
  refine congrArg _ (funext fun a => Fin.ext ?_)
  match a with
  | ⟨0, _⟩ => show win0_4.index t (0 : Fin 2) * 128 + 1 * j.val = j.val; omega
  | ⟨1, _⟩ => show win0_4.index t (1 : Fin 2) * 128 + 1 * k.val = k.val; omega

theorem mat_in5 (c : Dev nD) (t : Fin cfg0.N) :
    matOf (φ := .bf16) (iblk0 V c 5 t) = matOf (φ := .bf16) (V c main_v23) := by
  obtain ⟨-, -, -, -, -, -, -, -, -, -, e0, e1, -⟩ := idx_facts t
  funext j k
  show V c main_v23 (((cfg0.win 5).blk t).view.emb (ix2 j k)) = V c main_v23 (ix2 j k)
  refine congrArg _ (funext fun a => Fin.ext ?_)
  match a with
  | ⟨0, _⟩ => show win0_5.index t (0 : Fin 2) * 128 + 1 * j.val = j.val; omega
  | ⟨1, _⟩ => show win0_5.index t (1 : Fin 2) * 128 + 1 * k.val = k.val; omega

theorem bias_in6 (c : Dev nD) (t : Fin cfg0.N) :
    biasOf (φ := .f32) (iblk0 V c 6 t) = biasOf (φ := .f32) (V c main_v25) := by
  obtain ⟨-, -, -, -, -, -, -, -, -, -, -, -, e0, e1, -⟩ := idx_facts t
  funext k
  show V c main_v25 (((cfg0.win 6).blk t).view.emb (ix2 (0 : Fin 1) k)) = V c main_v25 (ix2 (0 : Fin 1) k)
  refine congrArg _ (funext fun a => Fin.ext ?_)
  match a with
  | ⟨0, _⟩ => show win0_6.index t (0 : Fin 2) * 1 + 1 * (0 : Fin 1).val = (0 : Fin 1).val; omega
  | ⟨1, _⟩ => show win0_6.index t (1 : Fin 2) * 128 + 1 * k.val = k.val; omega

/-! ## Blocks to the array -/

/-- WHAT POINT `t` WRITES BACK is block `t` of `edgeArr`. -/
theorem flushed_eq (c : Dev nD) (t : Fin cfg0.N) :
    (dat0 V c).flushed 7 t = ((cfg0.win 7).blk t).view.read (Elt Ideal) (edgeArr V c) := by
  show (cfg0.win 7).cut (grid0.coords t) ((dat0 V c).after 7 t) = _
  rw [after0_7]
  unfold out0_7
  rw [View.canon_unit_zero hz]
  simp only [View.ld_unit_zero (S := S8000x128) hz, View.ld_unit_zero (S := S128x128) hz, View.ld_unit_zero (S := S1x128) hz]
  obtain ⟨-, -, -, -, -, -, -, -, -, -, -, -, -, -, e1, hlt⟩ := idx_facts t
  funext j
  obtain ⟨p, q, rfl⟩ : ∃ (p : Fin 8000) (q : Fin 128), j = ix2 p q := ⟨j 0, j 1, eq_ix2 j⟩
  have hb : win0_7.index t (0 : Fin 2) * 8000 + p.val < 600000 := by have := p.isLt; omega
  show k0_pay1 (F := Ideal) (iblk0 V c 0 t) (iblk0 V c 1 t) (iblk0 V c 2 t) (iblk0 V c 4 t) (iblk0 V c 3 t) (iblk0 V c 5 t) (iblk0 V c 6 t) (ix2 p q)
    = edgeArr V c (((cfg0.win 7).blk t).view.emb (ix2 p q))
  refine (EdgeBody.pay_apply _ _ _ _ _ _ _ p q).trans ?_
  refine Eq.trans ?_ (edgeArr_at V c _ ⟨win0_7.index t (0 : Fin 2) * 8000 + p.val, hb⟩ q ?_ ?_).symm
  · rw [rows_in0 V c t p ⟨win0_7.index t (0 : Fin 2) * 8000 + p.val, hb⟩ rfl, rows_in1 V c t p ⟨win0_7.index t (0 : Fin 2) * 8000 + p.val, hb⟩ rfl,
      mat_in2 V c t, mat_in4 V c t, bias_in3 V c t, mat_in5 V c t, bias_in6 V c t]
  · show win0_7.index t (0 : Fin 2) * 8000 + 1 * p.val = win0_7.index t (0 : Fin 2) * 8000 + p.val; omega
  · show win0_7.index t (1 : Fin 2) * 128 + 1 * q.val = q.val; omega

/-- An index of the array is in point `t`'s block iff each coordinate is in the block's range on its axis. -/
theorem mem_blk (t : Fin cfg0.N) (i : S600000x128.Idx) :
    i ∈ ((cfg0.win 7).blk t).view.set ↔ ∀ a : Fin 2, win0_7.index t a * S8000x128.size a ≤ (i a).val ∧ (i a).val < win0_7.index t a * S8000x128.size a + S8000x128.size a := by
  show i ∈ ((View.whole main_v26).slice (win0_7.rect t)).set ↔ _
  rw [View.set_slice_whole, Rect.mem_set_unit]
  exact Iff.rfl

/-- Every index of the array is in the block of the point numbered by its row divided by 8000. -/
theorem cover (i : S600000x128.Idx) : ∃ t : Fin cfg0.N, (cfg0.win 7).flush t = true ∧ i ∈ ((cfg0.win 7).blk t).view.set := by
  have hi0 : (i 0).val < 600000 := (i 0).isLt
  have hi1 : (i 1).val < 128 := (i 1).isLt
  obtain ⟨t, ht⟩ := idx_onto ⟨(i 0).val / 8000, by omega⟩
  have q0 : win0_7.index t (0 : Fin 2) = (i 0).val / 8000 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 8000 ≤ (i 0).val ∧ (i 0).val < win0_7.index t (0 : Fin 2) * 8000 + 8000; omega
  | ⟨1, _⟩ => show win0_7.index t (1 : Fin 2) * 128 ≤ (i 1).val ∧ (i 1).val < win0_7.index t (1 : Fin 2) * 128 + 128; omega

/-- THE ARRAY after the region: `edgeArr` of the arrays as the region found them. -/
theorem final (c : Dev nD) : (dat0 V c).arrAt 7 cfg0.N = edgeArr V c :=
  (dat0 V c).arrAt_eq_of_cover 7 (edgeArr V c) (fun t _ => flushed_eq V c t) cover

end Cert.KernelIdeal.EdgeBlocks

end
-- ==== Proof.KernelHost.lean ====
/-
  The kernel program's host stretches, read back.

  Before the edge region the host cuts the two rows of the edge list (sources, destinations), wraps negative indices
  by the number of nodes, gathers the rows of the node features (after a change of float format, the identity here)
  at both index lists, cuts the first weight matrix into its two halves, and lays the two bias vectors out as rows.
  Between the regions it scatters the edge region's output rows, added up, onto the destination nodes of a zero array,
  and prepares the update network's weights and biases the same way. This file states what each window's array holds
  when its region is entered, as those operations of the launch arguments (and, for the aggregate, of the edge region's
  output array).
-/
import proofs.«121999_j13623636263131_2_alg».proof.Proof.Gen.KernelIdeal.Frame
import proofs.«121999_j13623636263131_2_alg».proof.Proof.EdgeBlocks
import Idealize.ShloMosaic.Lib.StableHlo.Run

set_option maxRecDepth 16384
set_option maxHeartbeats 2000000

noncomputable section

namespace Cert.KernelIdeal.HostSide

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- Row 0 of the edge list: the source node of every edge. -/
def srcRow (a1 : (⟨S2x600000, .i32⟩ : BufTy).Contents (Elt Ideal)) : (⟨S600000, .i32⟩ : BufTy).Contents (Elt Ideal) :=
  shapeCast _ (extractStridedSlice S1x600000 ![0, 0] a1 slices_S2x600000_S1x600000_0_0) shapeCasts_S1x600000_S600000

/-- Row 1 of the edge list: the destination node of every edge. -/
def dstRow (a1 : (⟨S2x600000, .i32⟩ : BufTy).Contents (Elt Ideal)) : (⟨S600000, .i32⟩ : BufTy).Contents (Elt Ideal) :=
  shapeCast _ (extractStridedSlice S1x600000 ![1, 0] a1 slices_S2x600000_S1x600000_1_0) shapeCasts_S1x600000_S600000

/-- A list of node indices with the negative ones moved up by the number of nodes, as a column of start indices. -/
def wrapIdx (r : (⟨S600000, .i32⟩ : BufTy).Contents (Elt Ideal)) : (⟨S600000x1, .i32⟩ : BufTy).Contents (Elt Ideal) :=
  broadcastInDim S600000x1 ![0] bcast_S600000_S600000x1_0
    (select (cmpi .slt r (broadcastInDim S600000 ![] bcast_S_S600000 (constantI S_ 32 0#32)))
      (addi r (broadcastInDim S600000 ![] bcast_S_S600000 (constantI S_ 32 50000#32))) r)

/-- The rows of the node features at a column of start indices. -/
def gatherRows (a0 : (⟨S50000x128, .f32⟩ : BufTy).Contents (Elt Ideal)) (ix : (⟨S600000x1, .i32⟩ : BufTy).Contents (Elt Ideal)) :
    (⟨S600000x128, .bf16⟩ : BufTy).Contents (Elt Ideal) :=
  Host.gather gather_S50000x128_S600000x1_S600000x128_1_0_n_n_0_1_1128 (truncf (F := Ideal) (s := S50000x128) (φ := .f32) .bf16 a0 bitsLt_bf16_f32) ix

/-- The edge rows added up per destination node, into a zero array. -/
def aggregate (a1 : (⟨S2x600000, .i32⟩ : BufTy).Contents (Elt Ideal)) (u : (⟨S600000x128, .f32⟩ : BufTy).Contents (Elt Ideal)) :
    (⟨S50000x128, .bf16⟩ : BufTy).Contents (Elt Ideal) :=
  truncf (F := Ideal) (s := S50000x128) (φ := .f32) .bf16 (Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 (dstRow a1)) u) bitsLt_bf16_f32

/-! ## At the edge region's entry -/

theorem V1_v11 (c : Dev nD) : V1 m ρ c main_v11
    = gatherRows (m ((c : Thread nD τ).loc main_arg0)) (wrapIdx (srcRow (m ((c : Thread nD τ).loc main_arg1)))) := by
  show StableHlo.after hostOps0 (W0 m ρ c) (Proc.devRef .tc main_v11) = _
  after_results_simp <;> rfl

theorem V1_v18 (c : Dev nD) : V1 m ρ c main_v18
    = gatherRows (m ((c : Thread nD τ).loc main_arg0)) (wrapIdx (dstRow (m ((c : Thread nD τ).loc main_arg1)))) := by
  show StableHlo.after hostOps0 (W0 m ρ c) (Proc.devRef .tc main_v18) = _
  after_results_simp <;> rfl

theorem V1_v20 (c : Dev nD) : V1 m ρ c main_v20
    = truncf (F := Ideal) (s := S128x128) (φ := .f32) .bf16 (extractStridedSlice S128x128 ![0, 0] (m ((c : Thread nD τ).loc main_arg2)) slices_S256x128_S128x128_0_0) bitsLt_bf16_f32 := by
  show StableHlo.after hostOps0 (W0 m ρ c) (Proc.devRef .tc main_v20) = _
  after_results_simp <;> rfl

theorem V1_v22 (c : Dev nD) : V1 m ρ c main_v22
    = truncf (F := Ideal) (s := S128x128) (φ := .f32) .bf16 (extractStridedSlice S128x128 ![128, 0] (m ((c : Thread nD τ).loc main_arg2)) slices_S256x128_S128x128_128_0) bitsLt_bf16_f32 := by
  show StableHlo.after hostOps0 (W0 m ρ c) (Proc.devRef .tc main_v22) = _
  after_results_simp <;> rfl

theorem V1_v23 (c : Dev nD) : V1 m ρ c main_v23 = truncf (F := Ideal) (s := S128x128) (φ := .f32) .bf16 (m ((c : Thread nD τ).loc main_arg4)) bitsLt_bf16_f32 := by
  show StableHlo.after hostOps0 (W0 m ρ c) (Proc.devRef .tc main_v23) = _
  after_results_simp <;> rfl

theorem V1_v24 (c : Dev nD) : V1 m ρ c main_v24 = shapeCast _ (m ((c : Thread nD τ).loc main_arg3)) shapeCasts_S128_S1x128 := by
  show StableHlo.after hostOps0 (W0 m ρ c) (Proc.devRef .tc main_v24) = _
  after_results_simp <;> rfl

theorem V1_v25 (c : Dev nD) : V1 m ρ c main_v25 = shapeCast _ (m ((c : Thread nD τ).loc main_arg5)) shapeCasts_S128_S1x128 := by
  show StableHlo.after hostOps0 (W0 m ρ c) (Proc.devRef .tc main_v25) = _
  after_results_simp <;> rfl

/-! ## After the edge region: what the second stretch reads -/

theorem W2_v3 (c : Dev nD) : W2 m ρ c (Proc.devRef .tc main_v3) = dstRow (m ((c : Thread nD τ).loc main_arg1)) :=
  (W2_of_ne m ρ c main_v3 (by decide)).trans (by
    show StableHlo.after hostOps0 (W0 m ρ c) (Proc.devRef .tc main_v3) = _
    after_results_simp <;> rfl)

theorem W2_v4 (c : Dev nD) : W2 m ρ c (Proc.devRef .tc main_v4) = truncf (F := Ideal) (s := S50000x128) (φ := .f32) .bf16 (m ((c : Thread nD τ).loc main_arg0)) bitsLt_bf16_f32 :=
  (W2_of_ne m ρ c main_v4 (by decide)).trans (by
    show StableHlo.after hostOps0 (W0 m ρ c) (Proc.devRef .tc main_v4) = _
    after_results_simp <;> rfl)

/-- The edge region's output array is `edgeArr` of the arrays the region found. -/
theorem W2_v26 (c : Dev nD) : W2 m ρ c (Proc.devRef .tc main_v26) = EdgeBlocks.edgeArr (V1 m ρ) c :=
  (W2_arr m ρ c 7).trans (EdgeBlocks.final (V1 m ρ) c)

theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results_simp <;> rfl)
theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results_simp <;> rfl)
theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results_simp <;> rfl)
theorem W2_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results_simp <;> rfl)
theorem W2_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results_simp <;> rfl)
theorem W2_arg11 (c : Dev nD) : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results_simp <;> rfl)

/-! ## At the update region's entry -/

theorem V3_v4 (c : Dev nD) : V3 m ρ c main_v4 = truncf (F := Ideal) (s := S50000x128) (φ := .f32) .bf16 (m ((c : Thread nD τ).loc main_arg0)) bitsLt_bf16_f32 := by
  show StableHlo.after hostOps1 (W2 m ρ c) (Proc.devRef .tc main_v4) = _
  after_results_simp
  exact W2_v4 m ρ c

theorem V3_v30 (c : Dev nD) : V3 m ρ c main_v30
    = aggregate (m ((c : Thread nD τ).loc main_arg1)) (EdgeBlocks.edgeArr (V1 m ρ) c) := by
  show StableHlo.after hostOps1 (W2 m ρ c) (Proc.devRef .tc main_v30) = _
  after_results_simp
  rw [W2_v3, W2_v26]
  rfl

theorem V3_v32 (c : Dev nD) : V3 m ρ c main_v32
    = truncf (F := Ideal) (s := S128x128) (φ := .f32) .bf16 (extractStridedSlice S128x128 ![0, 0] (m ((c : Thread nD τ).loc main_arg6)) slices_S256x128_S128x128_0_0) bitsLt_bf16_f32 := by
  show StableHlo.after hostOps1 (W2 m ρ c) (Proc.devRef .tc main_v32) = _
  after_results_simp
  rw [W2_arg6]

theorem V3_v34 (c : Dev nD) : V3 m ρ c main_v34
    = truncf (F := Ideal) (s := S128x128) (φ := .f32) .bf16 (extractStridedSlice S128x128 ![128, 0] (m ((c : Thread nD τ).loc main_arg6)) slices_S256x128_S128x128_128_0) bitsLt_bf16_f32 := by
  show StableHlo.after hostOps1 (W2 m ρ c) (Proc.devRef .tc main_v34) = _
  after_results_simp
  rw [W2_arg6]

theorem V3_v35 (c : Dev nD) : V3 m ρ c main_v35 = truncf (F := Ideal) (s := S128x128) (φ := .f32) .bf16 (m ((c : Thread nD τ).loc main_arg8)) bitsLt_bf16_f32 := by
  show StableHlo.after hostOps1 (W2 m ρ c) (Proc.devRef .tc main_v35) = _
  after_results_simp
  rw [W2_arg8]

theorem V3_v36 (c : Dev nD) : V3 m ρ c main_v36 = truncf (F := Ideal) (s := S128x128) (φ := .f32) .bf16 (m ((c : Thread nD τ).loc main_arg10)) bitsLt_bf16_f32 := by
  show StableHlo.after hostOps1 (W2 m ρ c) (Proc.devRef .tc main_v36) = _
  after_results_simp
  rw [W2_arg10]

theorem V3_v37 (c : Dev nD) : V3 m ρ c main_v37 = shapeCast _ (m ((c : Thread nD τ).loc main_arg7)) shapeCasts_S128_S1x128 := by
  show StableHlo.after hostOps1 (W2 m ρ c) (Proc.devRef .tc main_v37) = _
  after_results_simp
  rw [W2_arg7]
  rfl

theorem V3_v38 (c : Dev nD) : V3 m ρ c main_v38 = shapeCast _ (m ((c : Thread nD τ).loc main_arg9)) shapeCasts_S128_S1x128 := by
  show StableHlo.after hostOps1 (W2 m ρ c) (Proc.devRef .tc main_v38) = _
  after_results_simp
  rw [W2_arg9]
  rfl

theorem V3_v39 (c : Dev nD) : V3 m ρ c main_v39 = shapeCast _ (m ((c : Thread nD τ).loc main_arg11)) shapeCasts_S128_S1x128 := by
  show StableHlo.after hostOps1 (W2 m ρ c) (Proc.devRef .tc main_v39) = _
  after_results_simp
  rw [W2_arg11]
  rfl

end Cert.KernelIdeal.HostSide

end
-- ==== Proof.UpdateBody.lean ====
/-
  The update kernel's body at an entry, over the extended reals.

  The body stores one value: `tanh(tanh((hn · U1a + ha · U1b) + b1) · U2 + b2) · U3 + b3` of its 2000-row blocks. Entry
  `(p, q)` of it depends on row `p` of the two input blocks only: two hidden layers, each `tanh` of a dense layer of the
  row before it, then the output dense layer. The changes of float format are the identity on extended reals, and
  each matrix product into the zero accumulator is the plain sum over the 128 contracted indices.
-/
import proofs.«121999_j13623636263131_2_alg».proof.Proof.Gen.KernelIdeal.Skeleton
import proofs.«121999_j13623636263131_2_alg».proof.Proof.LibMatmulPlain
import proofs.«121999_j13623636263131_2_alg».proof.Proof.Dense
import Idealize.ShloMosaic.Lib.Pipeline.Value
import Idealize.ShloMosaic.Lib.ValueLayout

noncomputable section

open scoped BigOperators

namespace Cert.KernelIdeal.UpdateBody

open Idealize.ShloMosaic Idealize.ShloMosaic.ValueIdx Cert.KernelIdeal Cert.KernelIdeal.Gen Cert.Dense

/-- The printed dimension numbers of the body's four products are the plain ones. -/
theorem dims_eq : dot_S2000x128_S128x128_S2000x128_1_0_0_1_n_n = DotDims.plain 2000 128 128 := rfl

/-- ENTRY `(p, q)` OF THE STORED VALUE: the output layer of the second hidden row `p`. -/
theorem pay_apply (x0 x1 : FVec Ideal S2000x128 .bf16) (w1a w1b : FVec Ideal S128x128 .bf16) (b1 : FVec Ideal S1x128 .f32)
    (w2 : FVec Ideal S128x128 .bf16) (b2 : FVec Ideal S1x128 .f32) (w3 : FVec Ideal S128x128 .bf16) (b3 : FVec Ideal S1x128 .f32)
    (p : Fin 2000) (q : Fin 128) :
    k1_pay1 (F := Ideal) x0 x1 w1a w1b b1 w2 b2 w3 b3 (ix2 p q)
      = updateRow (rowOf x0 p) (rowOf x1 p) (matOf w1a) (matOf w1b) (biasOf b1) (matOf w2) (biasOf b2) (matOf w3) (biasOf b3) q := by
  unfold k1_pay1 updateRow
  simp only [shapeCast_self, matmul]
  rw [addf_apply, broadcastTo_1b_ab_apply, dims_eq, Cert.Lib.matmul_plain_zero_apply]
  unfold affine
  refine congrArg₂ (· + ·) (Finset.sum_congr rfl fun k _ => congrArg₂ (· * ·) ?_ rfl) rfl
  show Ideal.tanh _ = _
  refine congrArg Ideal.tanh ?_
  rw [addf_apply, broadcastTo_1b_ab_apply, Cert.Lib.matmul_plain_zero_apply]
  refine congrArg₂ (· + ·) (Finset.sum_congr rfl fun k' _ => congrArg₂ (· * ·) ?_ rfl) rfl
  show Ideal.tanh _ = _
  refine congrArg Ideal.tanh ?_
  rw [addf_apply, addf_apply, broadcastTo_1b_ab_apply, Cert.Lib.matmul_plain_zero_apply, Cert.Lib.matmul_plain_zero_apply]
  rfl

end Cert.KernelIdeal.UpdateBody

end
-- ==== Proof.UpdateBlocks.lean ====
/-
  The update region's output array, from its blocks.

  The region runs over 25 grid points; point `t` reads rows `2000 t … 2000 t + 1999` of the node features and of the
  aggregated edge features and the whole of the seven small operands (two weight halves, two more weight matrices, three
  bias rows), and writes back rows `2000 t … 2000 t + 1999` of the output. An output entry depends on its own row of the
  two streamed arrays only, so every block is the restriction of ONE function of the arrays as the region finds them —
  `updateArr` — and the 25 blocks fill the 50000 rows: the array ends holding `updateArr` everywhere.
-/
import proofs.«121999_j13623636263131_2_alg».proof.Proof.Gen.KernelIdeal.Frame
import proofs.«121999_j13623636263131_2_alg».proof.Proof.UpdateBody
import Idealize.ShloMosaic.Lib.Pipeline.Value

set_option maxRecDepth 16384

noncomputable section

namespace Cert.KernelIdeal.UpdateBlocks

open Cert.KernelIdeal Cert.KernelIdeal.Gen Cert.Dense
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- What the output array ends holding: row `e` is the update network of rows `e` of the two streamed arrays. -/
def updateArr (c : Dev nD) : FVec Ideal S50000x128 .f32 :=
  rowsArr fun e q => updateRow (rowOf (R := 50000) (φ := .bf16) (V c main_v4) e) (rowOf (R := 50000) (φ := .bf16) (V c main_v30) e)
      (matOf (φ := .bf16) (V c main_v32)) (matOf (φ := .bf16) (V c main_v34)) (biasOf (φ := .f32) (V c main_v37))
      (matOf (φ := .bf16) (V c main_v35)) (biasOf (φ := .f32) (V c main_v38)) (matOf (φ := .bf16) (V c main_v36)) (biasOf (φ := .f32) (V c main_v39)) q

/-- Read at an index whose coordinates are `e` and `q`. -/
theorem updateArr_at (c : Dev nD) (i : S50000x128.Idx) (e : Fin 50000) (q : Fin 128) (he : (i 0).val = e.val) (hq : (i 1).val = q.val) :
    updateArr V c i = updateRow (rowOf (R := 50000) (φ := .bf16) (V c main_v4) e) (rowOf (R := 50000) (φ := .bf16) (V c main_v30) e)
      (matOf (φ := .bf16) (V c main_v32)) (matOf (φ := .bf16) (V c main_v34)) (biasOf (φ := .f32) (V c main_v37))
      (matOf (φ := .bf16) (V c main_v35)) (biasOf (φ := .f32) (V c main_v38)) (matOf (φ := .bf16) (V c main_v36)) (biasOf (φ := .f32) (V c main_v39)) q := by
  have hi : i = ix2 e q := funext fun a => Fin.ext (match a with | ⟨0, _⟩ => he | ⟨1, _⟩ => hq)
  rw [hi]; rfl

/-- The printed index maps over the grid: the two streamed inputs move with the output along the rows, the seven small
    operands stay at their one block, and the output's row block is below 25. -/
theorem idx_facts : ∀ t : Fin cfg1.N,
    win1_0.index t (0 : Fin 2) = win1_9.index t (0 : Fin 2) ∧ win1_0.index t (1 : Fin 2) = 0
    ∧ win1_1.index t (0 : Fin 2) = win1_9.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (1 : Fin 2) = 0 ∧ win1_9.index t (0 : Fin 2) < 25 :=
  (by decide +kernel : ∀ t : Fin grid1.N, _)

/-- Every row block of the output is some point's. -/
theorem idx_onto : ∀ q0 : Fin 25, ∃ t : Fin cfg1.N, win1_9.index t = ![q0.val, 0] :=
  (by decide +kernel : ∀ q0 : Fin 25, ∃ t : Fin grid1.N, win1_9.index t = ![q0.val, 0])

/-! ## Each input block, read where the output's rows say -/

theorem rows_in0 (c : Dev nD) (t : Fin cfg1.N) (p : Fin 2000) (e : Fin 50000) (he : e.val = win1_9.index t (0 : Fin 2) * 2000 + p.val) :
    rowOf (R := 2000) (φ := .bf16) (iblk1 V c 0 t) p = rowOf (R := 50000) (φ := .bf16) (V c main_v4) e := by
  obtain ⟨e0, e1, -⟩ := idx_facts t
  funext k
  show V c main_v4 (((cfg1.win 0).blk t).view.emb (ix2 p k)) = V c main_v4 (ix2 e k)
  refine congrArg _ (funext fun a => Fin.ext ?_)
  match a with
  | ⟨0, _⟩ => show win1_0.index t (0 : Fin 2) * 2000 + 1 * p.val = e.val; omega
  | ⟨1, _⟩ => show win1_0.index t (1 : Fin 2) * 128 + 1 * k.val = k.val; omega

theorem rows_in1 (c : Dev nD) (t : Fin cfg1.N) (p : Fin 2000) (e : Fin 50000) (he : e.val = win1_9.index t (0 : Fin 2) * 2000 + p.val) :
    rowOf (R := 2000) (φ := .bf16) (iblk1 V c 1 t) p = rowOf (R := 50000) (φ := .bf16) (V c main_v30) e := by
  obtain ⟨-, -, e0, e1, -⟩ := idx_facts t
  funext k
  show V c main_v30 (((cfg1.win 1).blk t).view.emb (ix2 p k)) = V c main_v30 (ix2 e k)
  refine congrArg _ (funext fun a => Fin.ext ?_)
  match a with
  | ⟨0, _⟩ => show win1_1.index t (0 : Fin 2) * 2000 + 1 * p.val = e.val; omega
  | ⟨1, _⟩ => show win1_1.index t (1 : Fin 2) * 128 + 1 * k.val = k.val; omega

theorem mat_in2 (c : Dev nD) (t : Fin cfg1.N) :
    matOf (φ := .bf16) (iblk1 V c 2 t) = matOf (φ := .bf16) (V c main_v32) := by
  obtain ⟨-, -, -, -, e0, e1, -⟩ := idx_facts t
  funext j k
  show V c main_v32 (((cfg1.win 2).blk t).view.emb (ix2 j k)) = V c main_v32 (ix2 j k)
  refine congrArg _ (funext fun a => Fin.ext ?_)
  match a with
  | ⟨0, _⟩ => show win1_2.index t (0 : Fin 2) * 128 + 1 * j.val = j.val; omega
  | ⟨1, _⟩ => show win1_2.index t (1 : Fin 2) * 128 + 1 * k.val = k.val; omega

theorem bias_in3 (c : Dev nD) (t : Fin cfg1.N) :
    biasOf (φ := .f32) (iblk1 V c 3 t) = biasOf (φ := .f32) (V c main_v37) := by
  obtain ⟨-, -, -, -, -, -, e0, e1, -⟩ := idx_facts t
  funext k
  show V c main_v37 (((cfg1.win 3).blk t).view.emb (ix2 (0 : Fin 1) k)) = V c main_v37 (ix2 (0 : Fin 1) k)
  refine congrArg _ (funext fun a => Fin.ext ?_)
  match a with
  | ⟨0, _⟩ => show win1_3.index t (0 : Fin 2) * 1 + 1 * (0 : Fin 1).val = (0 : Fin 1).val; omega
  | ⟨1, _⟩ => show win1_3.index t (1 : Fin 2) * 128 + 1 * k.val = k.val; omega

theorem mat_in4 (c : Dev nD) (t : Fin cfg1.N) :
    matOf (φ := .bf16) (iblk1 V c 4 t) = matOf (φ := .bf16) (V c main_v34) := by
  obtain ⟨-, -, -, -, -, -, -, -, e0, e1, -⟩ := idx_facts t
  funext j k
  show V c main_v34 (((cfg1.win 4).blk t).view.emb (ix2 j k)) = V c main_v34 (ix2 j k)
  refine congrArg _ (funext fun a => Fin.ext ?_)
  match a with
  | ⟨0, _⟩ => show win1_4.index t (0 : Fin 2) * 128 + 1 * j.val = j.val; omega
  | ⟨1, _⟩ => show win1_4.index t (1 : Fin 2) * 128 + 1 * k.val = k.val; omega

theorem mat_in5 (c : Dev nD) (t : Fin cfg1.N) :
    matOf (φ := .bf16) (iblk1 V c 5 t) = matOf (φ := .bf16) (V c main_v35) := by
  obtain ⟨-, -, -, -, -, -, -, -, -, -, e0, e1, -⟩ := idx_facts t
  funext j k
  show V c main_v35 (((cfg1.win 5).blk t).view.emb (ix2 j k)) = V c main_v35 (ix2 j k)
  refine congrArg _ (funext fun a => Fin.ext ?_)
  match a with
  | ⟨0, _⟩ => show win1_5.index t (0 : Fin 2) * 128 + 1 * j.val = j.val; omega
  | ⟨1, _⟩ => show win1_5.index t (1 : Fin 2) * 128 + 1 * k.val = k.val; omega

theorem bias_in6 (c : Dev nD) (t : Fin cfg1.N) :
    biasOf (φ := .f32) (iblk1 V c 6 t) = biasOf (φ := .f32) (V c main_v38) := by
  obtain ⟨-, -, -, -, -, -, -, -, -, -, -, -, e0, e1, -⟩ := idx_facts t
  funext k
  show V c main_v38 (((cfg1.win 6).blk t).view.emb (ix2 (0 : Fin 1) k)) = V c main_v38 (ix2 (0 : Fin 1) k)
  refine congrArg _ (funext fun a => Fin.ext ?_)
  match a with
  | ⟨0, _⟩ => show win1_6.index t (0 : Fin 2) * 1 + 1 * (0 : Fin 1).val = (0 : Fin 1).val; omega
  | ⟨1, _⟩ => show win1_6.index t (1 : Fin 2) * 128 + 1 * k.val = k.val; omega

theorem mat_in7 (c : Dev nD) (t : Fin cfg1.N) :
    matOf (φ := .bf16) (iblk1 V c 7 t) = matOf (φ := .bf16) (V c main_v36) := by
  obtain ⟨-, -, -, -, -, -, -, -, -, -, -, -, -, -, e0, e1, -⟩ := idx_facts t
  funext j k
  show V c main_v36 (((cfg1.win 7).blk t).view.emb (ix2 j k)) = V c main_v36 (ix2 j k)
  refine congrArg _ (funext fun a => Fin.ext ?_)
  match a with
  | ⟨0, _⟩ => show win1_7.index t (0 : Fin 2) * 128 + 1 * j.val = j.val; omega
  | ⟨1, _⟩ => show win1_7.index t (1 : Fin 2) * 128 + 1 * k.val = k.val; omega

theorem bias_in8 (c : Dev nD) (t : Fin cfg1.N) :
    biasOf (φ := .f32) (iblk1 V c 8 t) = biasOf (φ := .f32) (V c main_v39) := by
  obtain ⟨-, -, -, -, -, -, -, -, -, -, -, -, -, -, -, -, e0, e1, -⟩ := idx_facts t
  funext k
  show V c main_v39 (((cfg1.win 8).blk t).view.emb (ix2 (0 : Fin 1) k)) = V c main_v39 (ix2 (0 : Fin 1) k)
  refine congrArg _ (funext fun a => Fin.ext ?_)
  match a with
  | ⟨0, _⟩ => show win1_8.index t (0 : Fin 2) * 1 + 1 * (0 : Fin 1).val = (0 : Fin 1).val; omega
  | ⟨1, _⟩ => show win1_8.index t (1 : Fin 2) * 128 + 1 * k.val = k.val; omega

/-! ## Blocks to the array -/

/-- WHAT POINT `t` WRITES BACK is block `t` of `updateArr`. -/
theorem flushed_eq (c : Dev nD) (t : Fin cfg1.N) :
    (dat1 V c).flushed 9 t = ((cfg1.win 9).blk t).view.read (Elt Ideal) (updateArr V c) := by
  show (cfg1.win 9).cut (grid1.coords t) ((dat1 V c).after 9 t) = _
  rw [after1_9]
  unfold out1_9
  rw [View.canon_unit_zero hz]
  simp only [View.ld_unit_zero (S := S2000x128) hz, View.ld_unit_zero (S := S128x128) hz, View.ld_unit_zero (S := S1x128) hz]
  obtain ⟨-, -, -, -, -, -, -, -, -, -, -, -, -, -, -, -, -, -, e1, hlt⟩ := idx_facts t
  funext j
  obtain ⟨p, q, rfl⟩ : ∃ (p : Fin 2000) (q : Fin 128), j = ix2 p q := ⟨j 0, j 1, eq_ix2 j⟩
  have hb : win1_9.index t (0 : Fin 2) * 2000 + p.val < 50000 := by have := p.isLt; omega
  show k1_pay1 (F := Ideal) (iblk1 V c 0 t) (iblk1 V c 1 t) (iblk1 V c 2 t) (iblk1 V c 4 t) (iblk1 V c 3 t) (iblk1 V c 5 t) (iblk1 V c 6 t) (iblk1 V c 7 t) (iblk1 V c 8 t) (ix2 p q)
    = updateArr V c (((cfg1.win 9).blk t).view.emb (ix2 p q))
  refine (UpdateBody.pay_apply _ _ _ _ _ _ _ _ _ p q).trans ?_
  refine Eq.trans ?_ (updateArr_at V c _ ⟨win1_9.index t (0 : Fin 2) * 2000 + p.val, hb⟩ q ?_ ?_).symm
  · rw [rows_in0 V c t p ⟨win1_9.index t (0 : Fin 2) * 2000 + p.val, hb⟩ rfl, rows_in1 V c t p ⟨win1_9.index t (0 : Fin 2) * 2000 + p.val, hb⟩ rfl,
      mat_in2 V c t, mat_in4 V c t, bias_in3 V c t, mat_in5 V c t, bias_in6 V c t, mat_in7 V c t, bias_in8 V c t]
  · show win1_9.index t (0 : Fin 2) * 2000 + 1 * p.val = win1_9.index t (0 : Fin 2) * 2000 + p.val; omega
  · show win1_9.index t (1 : Fin 2) * 128 + 1 * q.val = q.val; omega

/-- An index of the array is in point `t`'s block iff each coordinate is in the block's range on its axis. -/
theorem mem_blk (t : Fin cfg1.N) (i : S50000x128.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v40).slice (win1_9.rect t)).set ↔ _
  rw [View.set_slice_whole, Rect.mem_set_unit]
  exact Iff.rfl

/-- Every index of the array is in the block of the point numbered by its row divided by 2000. -/
theorem cover (i : S50000x128.Idx) : ∃ t : Fin cfg1.N, (cfg1.win 9).flush t = true ∧ i ∈ ((cfg1.win 9).blk t).view.set := by
  have hi0 : (i 0).val < 50000 := (i 0).isLt
  have hi1 : (i 1).val < 128 := (i 1).isLt
  obtain ⟨t, ht⟩ := idx_onto ⟨(i 0).val / 2000, by omega⟩
  have q0 : win1_9.index t (0 : Fin 2) = (i 0).val / 2000 := congrFun ht 0
  have q1 : win1_9.index t (1 : Fin 2) = 0 := congrFun ht 1
  refine ⟨t, flush1_9 t, ?_⟩
  rw [mem_blk]
  intro a
  match a with
  | ⟨0, _⟩ => show win1_9.index t (0 : Fin 2) * 2000 ≤ (i 0).val ∧ (i 0).val < win1_9.index t (0 : Fin 2) * 2000 + 2000; omega
  | ⟨1, _⟩ => show win1_9.index t (1 : Fin 2) * 128 ≤ (i 1).val ∧ (i 1).val < win1_9.index t (1 : Fin 2) * 128 + 128; omega

/-- THE ARRAY after the region: `updateArr` of the arrays as the region found them. -/
theorem final (c : Dev nD) : (dat1 V c).arrAt 9 cfg1.N = updateArr V c :=
  (dat1 V c).arrAt_eq_of_cover 9 (updateArr V c) (fun t _ => flushed_eq V c t) cover

end Cert.KernelIdeal.UpdateBlocks

end
-- ==== Proof.LibConcatCols.lean ====
/-
  Two arrays joined along their columns, read at an entry.

  For `x₁ : [R, A]` and `x₂ : [R, B]` joined along axis 1 into `[R, A + B]`, entry `(p, j)` with `j < A` is `x₁ (p, j)`
  and entry `(p, A + j)` is `x₂ (p, j)`.
-/
import Idealize.ShloMosaic.Lib.Pipeline.Value
import Idealize.ShloMosaic.Lib.ValueIdx

noncomputable section

namespace Cert.Lib

open Idealize.ShloMosaic Idealize.ShloMosaic.ValueIdx

variable {α : Type}

/-- ENTRY `(p, j)`, `j` in the first piece's columns: the first piece at `(p, j)`. -/
theorem concat_cols_left {R A B C : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, C]⟩ 1) (p : Fin R) (j : Fin A) (j' : Fin C) (hj : j'.val = j.val) :
    concatenate ⟨2, ![R, C]⟩ 1 [⟨⟨2, ![R, A]⟩, x₁⟩, ⟨⟨2, ![R, B]⟩, x₂⟩] h (ix2 p j') = x₁ (ix2 p j) :=
  concatenate_pair_apply_left 1 x₁ x₂ h (ix2 p j') rfl (ix2 p j) (fun b => by
    match b with
    | ⟨0, _⟩ => rfl
    | ⟨1, _⟩ => exact hj.symm)

/-- ENTRY `(p, A + j)`: the second piece at `(p, j)`. -/
theorem concat_cols_right {R A B C : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, C]⟩ 1) (p : Fin R) (j : Fin B) (j' : Fin C) (hj : j'.val = A + j.val) :
    concatenate ⟨2, ![R, C]⟩ 1 [⟨⟨2, ![R, A]⟩, x₁⟩, ⟨⟨2, ![R, B]⟩, x₂⟩] h (ix2 p j') = x₂ (ix2 p j) :=
  concatenate_pair_apply_right 1 x₁ x₂ h (ix2 p j') rfl rfl (ix2 p j) (fun b hb => by
    match b with
    | ⟨0, _⟩ => rfl
    | ⟨1, _⟩ => exact absurd rfl hb)
    (by show j.val + A = j'.val; omega)

end Cert.Lib

end
-- ==== Proof.RefRows.lean ====
/-
  The reference program, row by row.

  The reference joins the two gathered rows of an edge into one 256-entry row and multiplies it with the whole
  256 × 128 first weight matrix; the product of the joined row with the stacked matrix is the sum of the two half
  products, so each edge's output row is the edge network of its two gathered rows. The same holds of the update
  network on a node's features joined with its aggregate. Read at an entry, each matrix product is a sum over the
  contracted index, each bias a broadcast of a vector, and `tanh` the extended-real one.
-/
import proofs.«121999_j13623636263131_2_alg».proof.Proof.Gen.ReferenceIdeal.Read
import proofs.«121999_j13623636263131_2_alg».proof.Proof.Dense
import proofs.«121999_j13623636263131_2_alg».proof.Proof.LibConcatCols

set_option maxRecDepth 16384

noncomputable section

open scoped BigOperators

namespace Cert.ReferenceIdeal.Rows

open Cert.ReferenceIdeal Cert.ReferenceIdeal.Read Cert.Dense
open Idealize.ShloMosaic Idealize.ShloMosaic.ValueIdx

/-! ## The printed index maps at coordinates -/

theorem lidx19 (e : Fin 600000) (k : Fin 128) (j : Fin 256) : lidx_main_v19 (ix2 e k) j = ix2 e j :=
  funext fun a => Fin.ext (by match a with | ⟨0, _⟩ => rfl | ⟨1, _⟩ => rfl)
theorem ridx19 (e : Fin 600000) (k : Fin 128) (j : Fin 256) : ridx_main_v19 (ix2 e k) j = ix2 j k :=
  funext fun a => Fin.ext (by match a with | ⟨0, _⟩ => rfl | ⟨1, _⟩ => rfl)
theorem lidx24 (e : Fin 600000) (q : Fin 128) (k : Fin 128) : lidx_main_v24 (ix2 e q) k = ix2 e k :=
  funext fun a => Fin.ext (by match a with | ⟨0, _⟩ => rfl | ⟨1, _⟩ => rfl)
theorem ridx24 (e : Fin 600000) (q : Fin 128) (k : Fin 128) : ridx_main_v24 (ix2 e q) k = ix2 k q :=
  funext fun a => Fin.ext (by match a with | ⟨0, _⟩ => rfl | ⟨1, _⟩ => rfl)
theorem idx21 (e : Fin 600000) (k : Fin 128) : idx_main_v21 (ix2 e k) = ix2 (0 : Fin 1) k :=
  funext fun a => Fin.ext (by match a with | ⟨0, _⟩ => rfl | ⟨1, _⟩ => rfl)
theorem idx20 (u : Fin 1) (k : Fin 128) : idx_main_v20 (ix2 u k) = ix1 k :=
  funext fun a => Fin.ext (by match a with | ⟨0, _⟩ => rfl)
theorem idx26 (e : Fin 600000) (k : Fin 128) : idx_main_v26 (ix2 e k) = ix2 (0 : Fin 1) k :=
  funext fun a => Fin.ext (by match a with | ⟨0, _⟩ => rfl | ⟨1, _⟩ => rfl)
theorem idx25 (u : Fin 1) (k : Fin 128) : idx_main_v25 (ix2 u k) = ix1 k :=
  funext fun a => Fin.ext (by match a with | ⟨0, _⟩ => rfl)
theorem lidx32 (n : Fin 50000) (k : Fin 128) (j : Fin 256) : lidx_main_v32 (ix2 n k) j = ix2 n j :=
  funext fun a => Fin.ext (by match a with | ⟨0, _⟩ => rfl | ⟨1, _⟩ => rfl)
theorem ridx32 (n : Fin 50000) (k : Fin 128) (j : Fin 256) : ridx_main_v32 (ix2 n k) j = ix2 j k :=
  funext fun a => Fin.ext (by match a with | ⟨0, _⟩ => rfl | ⟨1, _⟩ => rfl)
theorem lidx37 (n : Fin 50000) (q : Fin 128) (k : Fin 128) : lidx_main_v37 (ix2 n q) k = ix2 n k :=
  funext fun a => Fin.ext (by match a with | ⟨0, _⟩ => rfl | ⟨1, _⟩ => rfl)
theorem ridx37 (n : Fin 50000) (q : Fin 128) (k : Fin 128) : ridx_main_v37 (ix2 n q) k = ix2 k q :=
  funext fun a => Fin.ext (by match a with | ⟨0, _⟩ => rfl | ⟨1, _⟩ => rfl)
theorem lidx42 (n : Fin 50000) (q : Fin 128) (k : Fin 128) : lidx_main_v42 (ix2 n q) k = ix2 n k :=
  funext fun a => Fin.ext (by match a with | ⟨0, _⟩ => rfl | ⟨1, _⟩ => rfl)
theorem ridx42 (n : Fin 50000) (q : Fin 128) (k : Fin 128) : ridx_main_v42 (ix2 n q) k = ix2 k q :=
  funext fun a => Fin.ext (by match a with | ⟨0, _⟩ => rfl | ⟨1, _⟩ => rfl)
theorem idx34 (n : Fin 50000) (k : Fin 128) : idx_main_v34 (ix2 n k) = ix2 (0 : Fin 1) k :=
  funext fun a => Fin.ext (by match a with | ⟨0, _⟩ => rfl | ⟨1, _⟩ => rfl)
theorem idx33 (u : Fin 1) (k : Fin 128) : idx_main_v33 (ix2 u k) = ix1 k :=
  funext fun a => Fin.ext (by match a with | ⟨0, _⟩ => rfl)
theorem idx39 (n : Fin 50000) (k : Fin 128) : idx_main_v39 (ix2 n k) = ix2 (0 : Fin 1) k :=
  funext fun a => Fin.ext (by match a with | ⟨0, _⟩ => rfl | ⟨1, _⟩ => rfl)
theorem idx38 (u : Fin 1) (k : Fin 128) : idx_main_v38 (ix2 u k) = ix1 k :=
  funext fun a => Fin.ext (by match a with | ⟨0, _⟩ => rfl)
theorem idx44 (n : Fin 50000) (k : Fin 128) : idx_main_v44 (ix2 n k) = ix2 (0 : Fin 1) k :=
  funext fun a => Fin.ext (by match a with | ⟨0, _⟩ => rfl | ⟨1, _⟩ => rfl)
theorem idx43 (u : Fin 1) (k : Fin 128) : idx_main_v43 (ix2 u k) = ix1 k :=
  funext fun a => Fin.ext (by match a with | ⟨0, _⟩ => rfl)

/-! ## The edge network -/

section
variable (x0 : (⟨S50000x128, .f32⟩ : BufTy).Contents (Elt Ideal)) (x1 : (⟨S2x600000, .i32⟩ : BufTy).Contents (Elt Ideal))
  (x2 : (⟨S256x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S256x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S128x128, .f32⟩ : BufTy).Contents (Elt Ideal)) (x11 : (⟨S128, .f32⟩ : BufTy).Contents (Elt Ideal))

/-- The joined row of edge `e`: its first half is the source's gathered row, its second half the destination's. -/
theorem joined_edge_left (e : Fin 600000) (j : Fin 128) :
    val_main_v18 (F := Ideal) x0 x1 (ix2 e ⟨j.val, by have := j.isLt; omega⟩) = rowOf (R := 600000) (φ := .f32) (val_main_v10 (F := Ideal) x0 x1) e j := by
  unfold val_main_v18
  exact Cert.Lib.concat_cols_left _ _ _ e j _ rfl
theorem joined_edge_right (e : Fin 600000) (j : Fin 128) :
    val_main_v18 (F := Ideal) x0 x1 (ix2 e ⟨128 + j.val, by have := j.isLt; omega⟩) = rowOf (R := 600000) (φ := .f32) (val_main_v17 (F := Ideal) x0 x1) e j := by
  unfold val_main_v18
  exact Cert.Lib.concat_cols_right _ _ _ e j _ rfl

/-- THE EDGE STAGE: row `e` is the edge network of the two gathered rows of edge `e`. -/
theorem edge_rows :
    val_main_v27 (F := Ideal) x0 x1 x2 x3 x4 x5
      = rowsArr fun e q => edgeRow (rowOf (R := 600000) (φ := .f32) (val_main_v10 (F := Ideal) x0 x1) e)
          (rowOf (R := 600000) (φ := .f32) (val_main_v17 (F := Ideal) x0 x1) e)
          (topHalf (φ := .f32) x2) (botHalf (φ := .f32) x2) (vecOf (φ := .f32) x3) (matOf (φ := .f32) x4) (vecOf (φ := .f32) x5) q := by
  funext i
  obtain ⟨e, q, rfl⟩ : ∃ (e : Fin 600000) (q : Fin 128), i = ix2 e q := ⟨i 0, i 1, eq_ix2 i⟩
  rw [rowsArr_ix2, val_main_v27_apply, val_main_v24_apply, val_main_v26_apply, val_main_v25_apply, idx26, idx25]
  unfold edgeRow affine
  rw [Ideal.addf_def]
  refine congrArg₂ (· + ·) (Finset.sum_congr rfl fun k _ => ?_) rfl
  rw [lidx24, ridx24, val_main_v23_apply, val_main_v22_apply, val_main_v19_apply, val_main_v21_apply, val_main_v20_apply, idx21, idx20,
    Ideal.hostUnary_tanh_def, Ideal.addf_def]
  refine congrArg₂ (· * ·) (congrArg Ideal.tanh ?_) rfl
  simp only [lidx19, ridx19]
  exact affineCat_eq (fun j => val_main_v18 (F := Ideal) x0 x1 (ix2 e j)) _ _ (fun j k => x2 (ix2 j k)) (vecOf (φ := .f32) x3)
    (joined_edge_left x0 x1 e) (joined_edge_right x0 x1 e) k

/-! ## The update network -/

/-- The joined row of node `n`: its first half is the node's features, its second half its aggregate. -/
theorem joined_node_left (n : Fin 50000) (j : Fin 128) :
    val_main_v31 (F := Ideal) x0 x1 x2 x3 x4 x5 (ix2 n ⟨j.val, by have := j.isLt; omega⟩) = rowOf (R := 50000) (φ := .f32) x0 n j := by
  unfold val_main_v31
  exact Cert.Lib.concat_cols_left _ _ _ n j _ rfl
theorem joined_node_right (n : Fin 50000) (j : Fin 128) :
    val_main_v31 (F := Ideal) x0 x1 x2 x3 x4 x5 (ix2 n ⟨128 + j.val, by have := j.isLt; omega⟩)
      = rowOf (R := 50000) (φ := .f32) (val_main_v30 (F := Ideal) x0 x1 x2 x3 x4 x5) n j := by
  unfold val_main_v31
  exact Cert.Lib.concat_cols_right _ _ _ n j _ rfl

/-- THE RESULT: row `n` is the update network of node `n`'s features and its aggregate. -/
theorem update_rows :
    val_main_v45 (F := Ideal) x0 x1 x2 x3 x4 x5 x6 x7 x8 x9 x10 x11
      = rowsArr fun n q => updateRow (rowOf (R := 50000) (φ := .f32) x0 n)
          (rowOf (R := 50000) (φ := .f32) (val_main_v30 (F := Ideal) x0 x1 x2 x3 x4 x5) n)
          (topHalf (φ := .f32) x6) (botHalf (φ := .f32) x6) (vecOf (φ := .f32) x7) (matOf (φ := .f32) x8) (vecOf (φ := .f32) x9)
          (matOf (φ := .f32) x10) (vecOf (φ := .f32) x11) q := by
  funext i
  obtain ⟨n, q, rfl⟩ : ∃ (n : Fin 50000) (q : Fin 128), i = ix2 n q := ⟨i 0, i 1, eq_ix2 i⟩
  rw [rowsArr_ix2, val_main_v45_apply, val_main_v42_apply, val_main_v44_apply, val_main_v43_apply, idx44, idx43]
  unfold updateRow affine
  rw [Ideal.addf_def]
  refine congrArg₂ (· + ·) (Finset.sum_congr rfl fun k _ => ?_) rfl
  rw [lidx42, ridx42, val_main_v41_apply, val_main_v40_apply, val_main_v37_apply, val_main_v39_apply, val_main_v38_apply, idx39, idx38,
    Ideal.hostUnary_tanh_def, Ideal.addf_def]
  refine congrArg₂ (· * ·) (congrArg Ideal.tanh ?_) rfl
  refine congrArg₂ (· + ·) (Finset.sum_congr rfl fun k' _ => ?_) rfl
  rw [lidx37, ridx37, val_main_v36_apply, val_main_v35_apply, val_main_v32_apply, val_main_v34_apply, val_main_v33_apply, idx34, idx33,
    Ideal.hostUnary_tanh_def, Ideal.addf_def]
  refine congrArg₂ (· * ·) (congrArg Ideal.tanh ?_) rfl
  simp only [lidx32, ridx32]
  exact affineCat_eq (fun j => val_main_v31 (F := Ideal) x0 x1 x2 x3 x4 x5 (ix2 n j)) _ _ (fun j k => x6 (ix2 j k)) (vecOf (φ := .f32) x7)
    (joined_node_left x0 x1 x2 x3 x4 x5 n) (joined_node_right x0 x1 x2 x3 x4 x5 n) k'

end

end Cert.ReferenceIdeal.Rows

end
-- ==== Proof.Bridge.lean ====
/-
  The kernel program's result is the reference's.

  Both programs gather the same rows (the kernel after a change of float format, the identity on extended reals), so
  the edge networks see the same pairs of rows; the kernel's weight halves are the two halves of the reference's
  stacked matrix and its bias rows the reference's bias vectors, so the edge region's output array is the reference's
  edge stage. Both then add those rows up per destination node with the same scatter, and the update networks see the
  same node features and the same aggregate: the update region's output array is the reference's result. The gather
  and the scatter are never opened: equal operands give equal results.
-/
import proofs.«121999_j13623636263131_2_alg».proof.Proof.KernelRun
import proofs.«121999_j13623636263131_2_alg».proof.Proof.KernelHost
import proofs.«121999_j13623636263131_2_alg».proof.Proof.UpdateBlocks
import proofs.«121999_j13623636263131_2_alg».proof.Proof.RefRows
import Idealize.ShloMosaic.Lib.ValueLayout

set_option maxRecDepth 16384

noncomputable section

namespace Cert.Bridge

open Idealize.ShloMosaic Idealize.ShloMosaic.TcCoe Idealize.ShloMosaic.ValueIdx Idealize.SL.Sem Cert.Dense
open Cert.KernelIdeal Cert.KernelIdeal.Gen Cert.KernelIdeal.HostSide

/-! ## Equal operands, equal results -/

/-- A gather of equal operands at equal start indices, by equal dimension numbers. -/
theorem gather_congr {s si t : Shape} {w : Nat} (d d' : GatherDims s si t) (hd : d = d') (x x' : s.Idx → EReal) (hx : x = x')
    (i i' : IVec si w) (hi : i = i') : Host.gather d x i = Host.gather d' x' i' := by
  subst hd hx hi; rfl

/-- An accumulating scatter of equal operands. -/
theorem scatterAdd_congr {s si u : Shape} {w : Nat} (d d' : ScatterDims s si u) (hd : d = d') (x x' : FVec Ideal s .f32) (hx : x = x')
    (i i' : IVec si w) (hi : i = i') (v v' : FVec Ideal u .f32) (hv : v = v') :
    Host.scatterAdd d x i v = Host.scatterAdd d' x' i' v' := by
  subst hd hx hi hv; rfl

/-- The edge network row by row, of equal rows and weights. -/
theorem edgeRows_congr {xa xa' xb xb' : Fin 600000 → Fin 128 → EReal} {wa wa' wb wb' w2 w2' : Fin 128 → Fin 128 → EReal}
    {b1 b1' b2 b2' : Fin 128 → EReal} (ha : xa = xa') (hb : xb = xb') (hwa : wa = wa') (hwb : wb = wb') (hb1 : b1 = b1')
    (hw2 : w2 = w2') (hb2 : b2 = b2') :
    rowsArr (fun e q => edgeRow (xa e) (xb e) wa wb b1 w2 b2 q) = rowsArr (fun e q => edgeRow (xa' e) (xb' e) wa' wb' b1' w2' b2' q) := by
  subst ha hb hwa hwb hb1 hw2 hb2; rfl

/-- The update network row by row, of equal rows and weights. -/
theorem updateRows_congr {xa xa' xb xb' : Fin 50000 → Fin 128 → EReal} {wa wa' wb wb' w2 w2' w3 w3' : Fin 128 → Fin 128 → EReal}
    {b1 b1' b2 b2' b3 b3' : Fin 128 → EReal} (ha : xa = xa') (hb : xb = xb') (hwa : wa = wa') (hwb : wb = wb') (hb1 : b1 = b1')
    (hw2 : w2 = w2') (hb2 : b2 = b2') (hw3 : w3 = w3') (hb3 : b3 = b3') :
    rowsArr (fun e q => updateRow (xa e) (xb e) wa wb b1 w2 b2 w3 b3 q)
      = rowsArr (fun e q => updateRow (xa' e) (xb' e) wa' wb' b1' w2' b2' w3' b3' q) := by
  subst ha hb hwa hwb hb1 hw2 hb2 hw3 hb3; rfl

/-! ## The operands, one by one -/

section Operands

variable (a0 : (⟨Cert.ReferenceIdeal.S50000x128, .f32⟩ : BufTy).Contents (Elt Ideal)) (a1 : (⟨Cert.ReferenceIdeal.S2x600000, .i32⟩ : BufTy).Contents (Elt Ideal))
  (w : (⟨Cert.ReferenceIdeal.S256x128, .f32⟩ : BufTy).Contents (Elt Ideal)) (b : (⟨Cert.ReferenceIdeal.S128, .f32⟩ : BufTy).Contents (Elt Ideal)) (w' : (⟨Cert.ReferenceIdeal.S128x128, .f32⟩ : BufTy).Contents (Elt Ideal))

/-- The two programs' gathers take the same dimension numbers. -/
theorem gatherDims_eq : gather_S50000x128_S600000x1_S600000x128_1_0_n_n_0_1_1128
    = Cert.ReferenceIdeal.gather_S50000x128_S600000x1_S600000x128_1_0_n_n_0_1_1128 := rfl

/-- And their scatters. -/
theorem scatterDims_eq : scatter_S50000x128_S600000x1_S600000x128_1_0_0_1 = Cert.ReferenceIdeal.scatter_S50000x128_S600000x1_S600000x128_1_0_0_1 := rfl

/-- The wrapped source indices are the reference's. -/
theorem srcIdx_eq : wrapIdx (srcRow a1) = Cert.ReferenceIdeal.Read.val_main_v9 (F := Ideal) a1 := rfl

/-- The wrapped destination indices are the reference's. -/
theorem dstIdx_eq : wrapIdx (dstRow a1) = Cert.ReferenceIdeal.Read.val_main_v16 (F := Ideal) a1 := rfl

/-- The rows gathered at the sources. -/
theorem rows_src : rowOf (R := 600000) (φ := .bf16) (gatherRows a0 (wrapIdx (srcRow a1)))
    = rowOf (R := 600000) (φ := .f32) (Cert.ReferenceIdeal.Read.val_main_v10 (F := Ideal) a0 a1) :=
  congrArg (fun X : S600000x128.Idx → EReal => fun (e : Fin 600000) (j : Fin 128) => X (ix2 e j))
    (gather_congr _ _ gatherDims_eq _ a0 rfl _ _ (srcIdx_eq a1))

/-- The rows gathered at the destinations. -/
theorem rows_dst : rowOf (R := 600000) (φ := .bf16) (gatherRows a0 (wrapIdx (dstRow a1)))
    = rowOf (R := 600000) (φ := .f32) (Cert.ReferenceIdeal.Read.val_main_v17 (F := Ideal) a0 a1) :=
  congrArg (fun X : S600000x128.Idx → EReal => fun (e : Fin 600000) (j : Fin 128) => X (ix2 e j))
    (gather_congr _ _ gatherDims_eq _ a0 rfl _ _ (dstIdx_eq a1))

/-- The node features after the change of format. -/
theorem rows_nodes (Y : FVec Ideal S50000x128 .f32) :
    rowOf (R := 50000) (φ := .bf16) (truncf (F := Ideal) (s := S50000x128) (φ := .f32) .bf16 Y bitsLt_bf16_f32)
      = rowOf (R := 50000) (φ := .f32) Y := rfl

/-- The first 128 rows of a stacked weight matrix. -/
theorem top_eq : matOf (φ := .bf16) (truncf (F := Ideal) (s := S128x128) (φ := .f32) .bf16
      (extractStridedSlice S128x128 ![0, 0] w slices_S256x128_S128x128_0_0) bitsLt_bf16_f32)
    = topHalf (φ := .f32) w := by
  funext j k
  exact slice2_axis0_apply 0 w slices_S256x128_S128x128_0_0 j k ⟨j.val, by have := j.isLt; omega⟩ (Nat.zero_add _).symm

/-- Its last 128 rows. -/
theorem bot_eq : matOf (φ := .bf16) (truncf (F := Ideal) (s := S128x128) (φ := .f32) .bf16
      (extractStridedSlice S128x128 ![128, 0] w slices_S256x128_S128x128_128_0) bitsLt_bf16_f32)
    = botHalf (φ := .f32) w := by
  funext j k
  exact slice2_axis0_apply 128 w slices_S256x128_S128x128_128_0 j k ⟨128 + j.val, by have := j.isLt; omega⟩ rfl

/-- A square weight matrix after the change of format. -/
theorem mat_eq : matOf (φ := .bf16) (truncf (F := Ideal) (s := S128x128) (φ := .f32) .bf16 w' bitsLt_bf16_f32)
    = matOf (φ := .f32) w' := rfl

/-- A bias vector laid out as one row. -/
theorem bias_eq : biasOf (φ := .f32) (shapeCast S1x128 b shapeCasts_S128_S1x128) = vecOf (φ := .f32) b := by
  funext k
  exact shapeCast_a_1a_apply b shapeCasts_S128_S1x128 (0 : Fin 1) k

/-- The aggregate of equal edge rows: the same scatter onto the same destinations of the same zero array. -/
theorem rows_agg (u : FVec Ideal S600000x128 .f32) :
    rowOf (R := 50000) (φ := .bf16) (aggregate a1 u)
      = rowOf (R := 50000) (φ := .f32) (Host.scatterAdd Cert.ReferenceIdeal.scatter_S50000x128_S600000x1_S600000x128_1_0_0_1
          (Cert.ReferenceIdeal.Read.val_main_v28 (F := Ideal)) (Cert.ReferenceIdeal.Read.val_main_v29 (F := Ideal) a1) u) :=
  (rows_nodes _).trans (congrArg (fun X : S50000x128.Idx → EReal => fun (e : Fin 50000) (j : Fin 128) => X (ix2 e j))
    (scatterAdd_congr _ _ scatterDims_eq _ _ rfl _ _ rfl u u rfl))

end Operands

/-! ## The two regions' arrays, at any entry contents whose window arrays are known -/

section AtEntry

variable (V : (c : Dev nD) → (b : Ref sig .tc) → Buf (Elt Ideal) ((c : Thread nD τ).loc b)) (c : Dev nD)

theorem edgeArr_of
    (X0 : Buf (Elt Ideal) ((c : Thread nD τ).loc main_v11)) (X1 : Buf (Elt Ideal) ((c : Thread nD τ).loc main_v18))
    (X2 : Buf (Elt Ideal) ((c : Thread nD τ).loc main_v20)) (X3 : Buf (Elt Ideal) ((c : Thread nD τ).loc main_v22))
    (X4 : Buf (Elt Ideal) ((c : Thread nD τ).loc main_v24)) (X5 : Buf (Elt Ideal) ((c : Thread nD τ).loc main_v23))
    (X6 : Buf (Elt Ideal) ((c : Thread nD τ).loc main_v25))
    (h0 : V c main_v11 = X0) (h1 : V c main_v18 = X1) (h2 : V c main_v20 = X2) (h3 : V c main_v22 = X3)
    (h4 : V c main_v24 = X4) (h5 : V c main_v23 = X5) (h6 : V c main_v25 = X6) :
    EdgeBlocks.edgeArr V c = rowsArr fun e q => edgeRow (rowOf (R := 600000) (φ := .bf16) X0 e) (rowOf (R := 600000) (φ := .bf16) X1 e)
      (matOf (φ := .bf16) X2) (matOf (φ := .bf16) X3) (biasOf (φ := .f32) X4) (matOf (φ := .bf16) X5) (biasOf (φ := .f32) X6) q := by
  subst h0 h1 h2 h3 h4 h5 h6; rfl

theorem updateArr_of
    (X0 : Buf (Elt Ideal) ((c : Thread nD τ).loc main_v4)) (X1 : Buf (Elt Ideal) ((c : Thread nD τ).loc main_v30))
    (X2 : Buf (Elt Ideal) ((c : Thread nD τ).loc main_v32)) (X3 : Buf (Elt Ideal) ((c : Thread nD τ).loc main_v34))
    (X4 : Buf (Elt Ideal) ((c : Thread nD τ).loc main_v37)) (X5 : Buf (Elt Ideal) ((c : Thread nD τ).loc main_v35))
    (X6 : Buf (Elt Ideal) ((c : Thread nD τ).loc main_v38)) (X7 : Buf (Elt Ideal) ((c : Thread nD τ).loc main_v36))
    (X8 : Buf (Elt Ideal) ((c : Thread nD τ).loc main_v39))
    (h0 : V c main_v4 = X0) (h1 : V c main_v30 = X1) (h2 : V c main_v32 = X2) (h3 : V c main_v34 = X3)
    (h4 : V c main_v37 = X4) (h5 : V c main_v35 = X5) (h6 : V c main_v38 = X6) (h7 : V c main_v36 = X7) (h8 : V c main_v39 = X8) :
    UpdateBlocks.updateArr V c = rowsArr fun e q => updateRow (rowOf (R := 50000) (φ := .bf16) X0 e) (rowOf (R := 50000) (φ := .bf16) X1 e)
      (matOf (φ := .bf16) X2) (matOf (φ := .bf16) X3) (biasOf (φ := .f32) X4) (matOf (φ := .bf16) X5) (biasOf (φ := .f32) X6)
      (matOf (φ := .bf16) X7) (biasOf (φ := .f32) X8) q := by
  subst h0 h1 h2 h3 h4 h5 h6 h7 h8; rfl

end AtEntry

/-! ## The two stages -/

section Stages

variable (m : (ℓ : Loc nD τ sig) → Buf (Elt Ideal) ℓ) (ρ : Dev nD → PrngReg)

/-- THE EDGE STAGE: the edge region's output array is the reference's edge stage of the launch arguments. -/
theorem edge_eq (c : Dev nD) :
    EdgeBlocks.edgeArr (V1 m ρ) c
      = Cert.ReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (edgeArr_of (V1 m ρ) c _ _ _ _ _ _ _ (V1_v11 m ρ c) (V1_v18 m ρ c) (V1_v20 m ρ c) (V1_v22 m ρ c) (V1_v24 m ρ c) (V1_v23 m ρ c)
      (V1_v25 m ρ c)).trans
    ((edgeRows_congr (rows_src _ _) (rows_dst _ _) (top_eq _) (bot_eq _) (bias_eq _) (mat_eq _) (bias_eq _)).trans
      (Cert.ReferenceIdeal.Rows.edge_rows _ _ _ _ _ _).symm)

/-- The aggregate's rows: the same scatter of the edge stage. -/
theorem agg_eq (c : Dev nD) :
    rowOf (R := 50000) (φ := .bf16) (aggregate (m ((c : Thread nD τ).loc main_arg1)) (EdgeBlocks.edgeArr (V1 m ρ) c))
      = rowOf (R := 50000) (φ := .f32)
          (Cert.ReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (congrArg (fun u => rowOf (R := 50000) (φ := .bf16) (aggregate (m ((c : Thread nD τ).loc main_arg1)) u)) (edge_eq m ρ c)).trans
    (rows_agg _ _)

/-- THE RESULT: the update region's output array is the reference's result of the launch arguments. -/
theorem result_eq (c : Dev nD) :
    W4 m ρ c (Proc.devRef .tc main_v40)
      = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (Cert.KernelIdeal.Named.W4_result m ρ c).trans ((UpdateBlocks.final (V3 m ρ) c).trans
    ((updateArr_of (V3 m ρ) c _ _ _ _ _ _ _ _ _ (V3_v4 m ρ c) (V3_v30 m ρ c) (V3_v32 m ρ c) (V3_v34 m ρ c) (V3_v37 m ρ c) (V3_v35 m ρ c)
        (V3_v38 m ρ c) (V3_v36 m ρ c) (V3_v39 m ρ c)).trans
      ((updateRows_congr (rows_nodes _) (agg_eq m ρ c) (top_eq _) (bot_eq _) (bias_eq _) (mat_eq _) (bias_eq _) (mat_eq _) (bias_eq _)).trans
        (Cert.ReferenceIdeal.Rows.update_rows _ _ _ _ _ _ _ _ _ _ _ _).symm)))

end Stages

end Cert.Bridge

end
-- ==== Proof.lean ====
/-
  A graph network's message passing, as a kernel program and as its reference, compute the same array over the
  extended reals.

  The kernel program gathers the node features at the source and at the destination of every edge, runs a
  two-layer network on each pair of gathered rows in a first pipelined region (75 blocks of 8000 edges), adds the
  600000 output rows up per destination node on the host, and runs a three-layer network on each node's features
  and aggregate in a second pipelined region (25 blocks of 2000 nodes). The reference does the same with whole-array
  operations, joining each pair of rows into one 256-entry row and multiplying it with the whole 256 × 128 first
  weight matrix where the kernel adds the two half products. Over the extended reals a change of float format is the
  identity, a matrix product is the plain sum over the contracted index, and a sum over 256 indices is the sum over
  its two halves of 128 — true with the infinities, so the precondition is never opened. The two programs share the
  gather and the scatter, which are carried whole: equal operands give equal results.

  The three frames are the generated ones (the reference's is its generated run with the result dropped); the
  idealization rewrote nothing, so `preserves` is `True`.
-/
import proofs.«121999_j13623636263131_2_alg».proof.Defs
import proofs.«121999_j13623636263131_2_alg».proof.Proof.Gen.Kernel
import proofs.«121999_j13623636263131_2_alg».proof.Proof.Gen.Kernel.Skeleton
import proofs.«121999_j13623636263131_2_alg».proof.Proof.Gen.Kernel.Launch
import proofs.«121999_j13623636263131_2_alg».proof.Proof.Gen.Kernel.Points
import proofs.«121999_j13623636263131_2_alg».proof.Proof.Gen.Kernel.Frame
import proofs.«121999_j13623636263131_2_alg».proof.Proof.Gen.KernelIdeal
import proofs.«121999_j13623636263131_2_alg».proof.Proof.Gen.KernelIdeal.Skeleton
import proofs.«121999_j13623636263131_2_alg».proof.Proof.Gen.KernelIdeal.Launch
import proofs.«121999_j13623636263131_2_alg».proof.Proof.Gen.KernelIdeal.Points
import proofs.«121999_j13623636263131_2_alg».proof.Proof.Gen.KernelIdeal.Frame
import proofs.«121999_j13623636263131_2_alg».proof.Proof.Gen.ReferenceIdeal
import proofs.«121999_j13623636263131_2_alg».proof.Proof.Gen.Pre_finite_inputs
import proofs.«121999_j13623636263131_2_alg».proof.Proof.Gen.ReferenceIdeal.Run
import proofs.«121999_j13623636263131_2_alg».proof.Proof.Gen.ReferenceIdeal.Read
import proofs.«121999_j13623636263131_2_alg».proof.Proof.Bridge
import Idealize.ShloMosaic.Adequacy
import Idealize.ShloMosaic.Init

set_option maxRecDepth 16384

noncomputable section

namespace Cert.Proof

open Idealize.ShloMosaic Idealize.SL.Sem

/-- The kernel program as printed runs, its arguments unchanged. -/
theorem frame_p : Cert.frame_Kernel := fun m ρ _ => Cert.Kernel.Gen.frame m ρ

/-- So does its idealization. -/
theorem frame_pi : Cert.frame_KernelIdeal := fun m ρ _ => Cert.KernelIdeal.Gen.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the reference's result of the kernel's arguments:
    the kernel by its run and the equality of the two stages, the reference by its run with the arguments' agreement
    rewritten. -/
theorem algebraic : Cert.algebraic_KernelIdeal_ReferenceIdeal := by
  intro m ρ m' ρ' _ hagree
  refine ⟨fun c => Cert.ReferenceIdeal.Read.val_main_v45 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c => ⟨(h c).1.trans (Cert.Bridge.result_eq m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11⟩ := hagree c
    refine (Cert.ReferenceIdeal.Read.val_main_v45_eq _ _ _ _ _ _ _ _ _ _ _ _).trans ?_
    rw [h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
